-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 16
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .hbm, ⟨14, _⟩ => ⟨S1x4096, .f32⟩
  | .hbm, ⟨15, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.TernarySpec.lean ====
/-
  The function both programs compute, on the extended reals, and the two laws that join their arrangements of it.

  For an input `x` of shape [8192, 4096], a weight `w` of shape [4096, 4096] and a bias `b` of length 4096 the
  result at row `r` and column `o` is

      (∑ k, x[r, k] · t(w[o, k])) + b[o],      t(v) = round-half-even (min 1 (max (-1) v)),

  the weight clamped to [-1, 1] and rounded to the nearest integer (ties to even), so one of -1, 0, 1.

  * One side does not use `t(v)` itself but `v + (t(v) - v)`. For a REAL `v` that is `t(v)` whatever extended real
    `t(v)` is (`add_sub_cancel_of_real`); at `v = +∞` it is not (`+∞ + (1 - ∞) = -∞` on the extended reals), which is
    why the weight has to be finite.
  * The other side sums the 4096 products in 8 consecutive tiles of 512 and adds the tiles up; that is the same sum by
    commutativity and associativity of the addition alone (`sum_tiles`), with no finiteness asked of `x`.
-/
import Idealize.ShloMosaic.PureOps.Ideal
import Idealize.ShloMosaic.PureOps.Ideal.Laws
import Idealize.ShloMosaic.Lib.ValueIdx
import proofs.«121766_j87230785782560_2_alg».proof.Proof.LibTileSum

noncomputable section

open scoped BigOperators

namespace Cert.TernaryLinear

open Idealize.ShloMosaic Idealize.ShloMosaic.ValueIdx

/-- The ternary value of a weight: clamp to [-1, 1], then round to the nearest integer, ties to even. The two bounds
    are kept as the float words the programs spell them with (`1.0` and `-1.0`). -/
def tern (v : EReal) : EReal :=
  FloatOps.hostUnary (F := Ideal) (φ := .f32) .roundeven
    (min (Ideal.ofBits .f32 0x3F800000#32) (max (Ideal.ofBits .f32 0xBF800000#32) v))

/-- Term `k` of entry `(r, o)`: `x[r, k] · tern(w[o, k])`. -/
def rowTerm (x : (⟨2, ![8192, 4096]⟩ : Shape).Idx → EReal) (w : (⟨2, ![4096, 4096]⟩ : Shape).Idx → EReal)
    (r : Fin 8192) (o : Fin 4096) (k : Fin 4096) : EReal :=
  x (ix2 r k) * tern (w (ix2 o k))

/-- Entry `(r, o)` of the result: the sum over `k` of `x[r, k] · tern(w[o, k])`, plus `b[o]`. -/
def entry (x : (⟨2, ![8192, 4096]⟩ : Shape).Idx → EReal) (w : (⟨2, ![4096, 4096]⟩ : Shape).Idx → EReal)
    (b : (⟨1, ![4096]⟩ : Shape).Idx → EReal) (r : Fin 8192) (o : Fin 4096) : EReal :=
  (∑ k : Fin 4096, rowTerm x w r o k) + b (ix1 o)

/-- The result array as one function of the three argument arrays. -/
def out (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

/-- For a real `v` and ANY extended real `q`, `v + (q - v) = q`: at `q = ±∞` both sides are that infinity, and for a
    real `q` it is the identity of the reals. -/
theorem add_sub_cancel_of_real (v : ℝ) (q : EReal) : (v : EReal) + (q - (v : EReal)) = q := by
  induction q using EReal.rec with
  | bot => rw [EReal.bot_sub, EReal.add_bot]
  | coe r => rw [← EReal.coe_sub, ← EReal.coe_add]; exact congrArg _ (by ring)
  | top => rw [EReal.top_sub_coe, EReal.coe_add_top]

/-- The position `512 · s + j` of offset `j` in tile `s`, among 4096 positions. -/
abbrev tilePos (s : Fin 8) (j : Fin 512) : Fin 4096 := ⟨512 * s.val + j.val, Cert.Lib.tile_index_lt (K := 8) (N := 512) s j⟩

/-- A sum over 4096 positions is the sum, over 8 tiles counted by `Finset.range 8`, of each tile's own sum `T s` of its
    512 terms. -/
theorem sum_tiles (f : Fin 4096 → EReal) (T : ℕ → EReal) (hT : ∀ s : Fin 8, T s.val = ∑ j : Fin 512, f (tilePos s j)) :
    ∑ k : Fin 4096, f k = ∑ s ∈ Finset.range 8, T s :=
  Cert.Lib.sum_fin_mul_eq_sum_range_of_tiles 8 512 f T hT

end Cert.TernaryLinear

end
-- ==== Proof.RefRead.lean ====
/-
  The reference, read at an index, is the specification.

  The reference builds the ternary weight as `w + (t(w) - w)` and contracts the input's second axis with the weight's
  second axis in one `dot_general`, then adds the bias broadcast along the rows. Entry `(r, o)` is therefore
  `(∑ k, x[r, k] · (w[o, k] + (t(w[o, k]) - w[o, k]))) + b[o]`, and for a real `w[o, k]` the inner term is
  `t(w[o, k])`.
-/
import proofs.«121766_j87230785782560_2_alg».proof.Defs
import proofs.«121766_j87230785782560_2_alg».proof.Proof.Gen.ReferenceIdeal.Read
import proofs.«121766_j87230785782560_2_alg».proof.Proof.TernarySpec

noncomputable section

open scoped BigOperators

namespace Cert.ReferenceIdeal.RefValue

open Cert.ReferenceIdeal Cert.ReferenceIdeal.Gen Idealize.ShloMosaic Idealize.ShloMosaic.ValueIdx Cert.TernaryLinear

/-- The reference's result, as a function of its three arguments, is the specification when the weight's entries are
    reals. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (hw : ∀ j : S4096x4096.Idx, ∃ r : ℝ, x1 j = r) :
    Read.val_main_v7 (F := Ideal) x0 x1 x2 = out x0 x1 x2 := by
  funext i
  obtain ⟨p, q, rfl⟩ : ∃ (p : Fin 8192) (q : Fin 4096), i = ix2 p q := ⟨i 0, i 1, eq_ix2 i⟩
  have el : ∀ k : Fin 4096, Read.lidx_main_v4 (ix2 p q) k = ix2 p k := fun k => funext fun a => by
    match a with | ⟨0, _⟩ => rfl | ⟨1, _⟩ => rfl
  have er : ∀ k : Fin 4096, Read.ridx_main_v4 (ix2 p q) k = ix2 q k := fun k => funext fun a => by
    match a with | ⟨0, _⟩ => rfl | ⟨1, _⟩ => rfl
  have eb : Read.idx_main_v5 (Read.idx_main_v6 (ix2 p q)) = ix1 q := funext fun a => by
    match a with | ⟨0, _⟩ => rfl
  rw [Read.val_main_v7_apply, Read.val_main_v4_apply, Read.val_main_v6_apply, Read.val_main_v5_apply, eb]
  show (∑ k : Fin 4096, x0 (Read.lidx_main_v4 (ix2 p q) k) * Read.val_main_v3 (F := Ideal) x1 (Read.ridx_main_v4 (ix2 p q) k)) + x2 (ix1 q)
    = (∑ k : Fin 4096, x0 (ix2 p k) * tern (x1 (ix2 q k))) + x2 (ix1 q)
  refine congrArg (· + x2 (ix1 q)) (Finset.sum_congr rfl fun k _ => ?_)
  rw [el, er]
  obtain ⟨r, hr⟩ := hw (ix2 q k)
  refine congrArg (x0 (ix2 p k) * ·) ?_
  rw [Read.val_main_v3_apply, Read.val_main_v2_apply, Read.val_main_v1_apply, Read.val_main_v0_apply,
    Read.val_main_call0_v4_apply, Read.val_main_call0_v3_apply, Read.val_main_cst_0_apply, Read.val_main_call0_v2_apply,
    Read.val_main_call0_v1_apply, Read.val_main_call0_v0_apply, Read.val_main_cst_apply]
  show x1 (ix2 q k) + (tern (x1 (ix2 q k)) - x1 (ix2 q k)) = tern (x1 (ix2 q k))
  rw [hr]
  exact add_sub_cancel_of_real r _

end Cert.ReferenceIdeal.RefValue

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.FiniteWeight.lean ====
/-
  From the precondition to the one fact the equality needs: every entry of the weight is a real.

  The precondition is the conjunction of three tests, one per argument, each "all entries have absolute value below
  +∞"; the second conjunct is the weight's.
-/
import proofs.«121766_j87230785782560_2_alg».proof.Pre_finite_inputs
import proofs.«121766_j87230785782560_2_alg».proof.Proof.LibFiniteEntries

noncomputable section

namespace Cert.TernaryLinear

open Idealize.ShloMosaic Idealize.ShloMosaic.ValueIdx

/-- Under the precondition every entry of the weight (the second argument) is a real number. -/
theorem weight_real [Cert.Pre_finite_inputs.Facts]
    (a0 : FVec Ideal Cert.Pre_finite_inputs.S8192x4096 .f32) (a1 : FVec Ideal Cert.Pre_finite_inputs.S4096x4096 .f32)
    (a2 : FVec Ideal Cert.Pre_finite_inputs.S4096 .f32)
    (h : Cert.Pre_finite_inputs.fn (F := Ideal) a0 a1 a2 = fun _ => 1#1) (j : Cert.Pre_finite_inputs.S4096x4096.Idx) :
    ∃ r : ℝ, a1 j = r := by
  have h0 := congrFun h ix0
  dsimp only [Cert.Pre_finite_inputs.fn] at h0
  have h1 := (IntOp.andi_eq_one.mp h0).1
  have h2 := (IntOp.andi_eq_one.mp h1).2
  exact FiniteEntries.real_of_all a1 _ _ _ _ h2 j

end Cert.TernaryLinear

end
-- ==== Proof.KernelOps.lean ====
/-
  The kernel body's three stored values, read at an index on the extended reals.

  * the reset value is zero everywhere;
  * the accumulation step adds to the carried block, at entry `(a, b)`, the 512 products of row `a` of the input block
    with column `b` of the weight block (the conversion of the input block to a narrower float format is the identity
    on the extended reals, and the matrix product into a zero accumulator is the plain sum);
  * the final step adds the bias block's entry of the same column, whatever the row.
-/
import proofs.«121766_j87230785782560_2_alg».proof.Proof.Gen.KernelIdeal.Skeleton
import proofs.«121766_j87230785782560_2_alg».proof.Proof.TernarySpec
import Idealize.ShloMosaic.Lib.ValueIdx
import Idealize.ShloMosaic.Lib.Pipeline.Value
import Idealize.ShloMosaic.PureOps.Ideal.Laws

noncomputable section

open scoped BigOperators

namespace Cert.KernelIdeal.TernValue

open Cert.KernelIdeal Cert.KernelIdeal.Gen Idealize.ShloMosaic Idealize.ShloMosaic.ValueIdx

/-- Entry `(a, b)` of the product of a 1024 × 512 block with a 512 × 2048 block. -/
def tileDot (x0 : Vec Ideal S1024x512 .f32) (x1 : Vec Ideal S512x2048 .bf16) (a : Fin 1024) (b : Fin 2048) : EReal :=
  ∑ kk : Fin 512, x0 (ix2 a kk) * x1 (ix2 kk b)

/-- The reset value is zero at every entry. -/
theorem pay1_apply (y : S1024x2048.Idx) : k0_pay1 (F := Ideal) y = 0 :=
  Ideal.ofBits_zero_f32

/-- The left operand's row is the result's row. -/
theorem lhs_row (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl

/-- The left operand's column is the contraction index. -/
theorem lhs_col (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q

/-- The right operand's row is the contraction index. -/
theorem rhs_row (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q

/-- The right operand's column is the result's column. -/
theorem rhs_col (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product into a zero accumulator, at entry `(a, b)`, is the sum of the 512 products. -/
theorem matmul_zero_apply (l : FVec Ideal S1024x512 .bf16) (r : FVec Ideal S512x2048 .bf16) (a : Fin 1024) (b : Fin 2048) :
    FloatOps.matmul dot_S1024x512_S512x2048_S1024x2048_1_0_0_1_n_n none l r (constant S1024x2048 .f32 0x00000000#32) (ix2 a b)
      = ∑ kk : Fin 512, l (ix2 a kk) * r (ix2 kk b) := by
  rw [Ideal.matmul_constant_zero_apply, ← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 a b) ((ValueIdx.contrEquiv1 dot_S1024x512_S512x2048_S1024x2048_1_0_0_1_n_n 512 rfl rfl).symm k) = ix2 a k := funext fun d => Fin.ext (by
    match d with
    | ⟨0, _⟩ => exact lhs_row _ _
    | ⟨1, _⟩ => exact (lhs_col _ _).trans hk)
  have er : dot_S1024x512_S512x2048_S1024x2048_1_0_0_1_n_n.rhsIdx (ix2 a b) ((ValueIdx.contrEquiv1 dot_S1024x512_S512x2048_S1024x2048_1_0_0_1_n_n 512 rfl rfl).symm k) = ix2 k b := funext fun d => Fin.ext (by
    match d with
    | ⟨0, _⟩ => exact (rhs_row _ _).trans hk
    | ⟨1, _⟩ => exact rhs_col _ _)
  rw [el, er]

/-- The accumulation step at entry `(a, b)`: the carried value plus the block product's entry. -/
theorem pay2_apply (x0 : Vec Ideal S1024x512 .f32) (x1 : Vec Ideal S512x2048 .bf16) (acc : Vec Ideal S1024x2048 .f32)
    (a : Fin 1024) (b : Fin 2048) :
    k0_pay2 x0 x1 acc (ix2 a b) = acc (ix2 a b) + tileDot x0 x1 a b := by
  unfold k0_pay2
  rw [shapeCast_self, shapeCast_self]
  show (acc (ix2 a b) : EReal) + FloatOps.matmul (F := Ideal) dot_S1024x512_S512x2048_S1024x2048_1_0_0_1_n_n none (truncf .bf16 x0 bitsLt_bf16_f32 : FVec Ideal S1024x512 .bf16) x1 (constant S1024x2048 .f32 0x00000000#32) (ix2 a b) = _
  rw [matmul_zero_apply]
  rfl

/-- The final step at entry `(a, b)`: the carried value plus the bias block's entry of column `b`. -/
theorem pay3_apply (v : Vec Ideal S1024x2048 .f32) (bias : Vec Ideal S1x2048 .f32) (a : Fin 1024) (b : Fin 2048) :
    k0_pay3 v bias (ix2 a b) = v (ix2 a b) + bias (ix2 (0 : Fin 1) b) := by
  unfold k0_pay3
  rw [shapeCast_self, shapeCast_self]
  show (v (ix2 a b) : EReal) + broadcastTo S1024x2048 bias broadcasts_S1x2048_S1024x2048 (ix2 a b) = _
  rw [broadcastTo_apply bias broadcasts_S1x2048_S1024x2048 (ix2 a b) (ix2 (0 : Fin 1) b) (fun d => by
    match d with
    | ⟨0, _⟩ => rfl
    | ⟨1, _⟩ => rfl)]

end Cert.KernelIdeal.TernValue

end
-- ==== Proof.KernelBlocks.lean ====
/-
  What the kernel's three input windows hold at a grid point, read at an index.

  The grid has 8 × 2 × 8 points `(i, j, k)`, visited with `k` fastest; the output's block at the point is block
  `(i, j)` of 1024 × 2048 entries. At that point
  * the first window holds block `(i, k)` (1024 × 512) of the input `x`;
  * the second holds block `(k, j)` (512 × 2048) of the array the host prepared before the launch: the transpose of the
    ternary weight, entry `(k', o) ↦ tern(w[o, k'])`;
  * the third holds block `(0, j)` (1 × 2048) of the bias laid out as one row.
  So, at an entry of the output block that sits at `(r, o)` in the whole result, the 512 products of the point are
  `x[r, 512·k + j'] · tern(w[o, 512·k + j'])`, `j' < 512`, and the bias entry is `b[o]`.
-/
import proofs.«121766_j87230785782560_2_alg».proof.Proof.Gen.KernelIdeal.Value
import proofs.«121766_j87230785782560_2_alg».proof.Proof.KernelOps
import Idealize.ShloMosaic.Lib.StableHlo.Run

noncomputable section

open scoped BigOperators

namespace Cert.KernelIdeal.TernValue

open Cert.KernelIdeal Cert.KernelIdeal.Gen Idealize.ShloMosaic Idealize.ShloMosaic.TcCoe Idealize.SL.Sem
open Idealize.ShloMosaic.StableHlo Idealize.ShloMosaic.ValueIdx Cert.TernaryLinear

variable (m : (ℓ : Loc nD τ sig) → Buf (Elt Ideal) ℓ)

/-! ## The two arrays the host prepares before the launch -/

/-- The transposed ternary weight: clamp, round, (a change of float format,) transpose. -/
def ternT (W : FVec Ideal S4096x4096 .f32) : FVec Ideal S4096x4096 .bf16 :=
  transpose S4096x4096 [1, 0]
    (truncf .bf16
      (Host.roundeven
        (minimumf (broadcastInDim S4096x4096 ![] bcast_S_S4096x4096 (id (constant S_ .f32 0x3F800000#32)))
          (maximumf (broadcastInDim S4096x4096 ![] bcast_S_S4096x4096 (id (constant S_ .f32 0xBF800000#32))) W)))
      bitsLt_bf16_f32)
    transposes_S4096x4096_S4096x4096_1_0

/-- Entry `(k, o)` of the transposed ternary weight is the ternary value of `w[o, k]`. -/
theorem ternT_apply (W : FVec Ideal S4096x4096 .f32) (k o : Fin 4096) : ternT W (ix2 k o) = tern (W (ix2 o k)) := by
  unfold ternT
  refine (transpose_apply [1, 0] _ transposes_S4096x4096_S4096x4096_1_0 (ix2 k o) (ix2 o k) (fun b => by
    match b with
    | ⟨0, _⟩ => rfl
    | ⟨1, _⟩ => rfl)).trans ?_
  show FloatOps.hostUnary (F := Ideal) (φ := .f32) .roundeven
      (min (broadcastInDim S4096x4096 ![] bcast_S_S4096x4096 (id (constant (F := Ideal) S_ .f32 0x3F800000#32)) (ix2 o k))
        (max (broadcastInDim S4096x4096 ![] bcast_S_S4096x4096 (id (constant (F := Ideal) S_ .f32 0xBF800000#32)) (ix2 o k))
          (W (ix2 o k)))) = _
  rw [broadcastInDim_apply ![] bcast_S_S4096x4096 _ (ix2 o k) ix0 (fun d => d.elim0),
    broadcastInDim_apply ![] bcast_S_S4096x4096 _ (ix2 o k) ix0 (fun d => d.elim0)]
  rfl

/-- The bias laid out as one row, at `(0, o)`, is `b[o]`. -/
theorem biasRow_apply (B : FVec Ideal S4096 .f32) (o : Fin 4096) :
    shapeCast S1x4096 B shapeCasts_S4096_S1x4096 (ix2 (0 : Fin 1) o) = B (ix1 o) :=
  shapeCast_apply B shapeCasts_S4096_S1x4096 (ix2 (0 : Fin 1) o) (ix1 o) (by
    rw [Shape.rowMajor_val_one, Shape.rowMajor_val_two]
    show o.val = 0 * 4096 + o.val
    omega)

/-- When the kernel is launched the second window's array is the transposed ternary weight. -/
theorem V_main_v3 (c : Dev nD) :
    (V m c main_v3 : S4096x4096.Idx → EReal) = ternT (m ((c : Thread nD τ).loc main_arg1)) := by
  dsimp only [V]
  simp only [hostOps0, hostOps0_1, hostOps0_2, hostOps0_3, List.flatten_cons, List.flatten_nil, List.append_nil,
    List.cons_append, List.nil_append]
  after_results
  rfl

/-- When the kernel is launched the third window's array is the bias as one row. -/
theorem V_main_v4 (c : Dev nD) :
    (V m c main_v4 : S1x4096.Idx → EReal) = shapeCast S1x4096 (m ((c : Thread nD τ).loc main_arg2)) shapeCasts_S4096_S1x4096 := by
  dsimp only [V]
  simp only [hostOps0, hostOps0_1, hostOps0_2, hostOps0_3, List.flatten_cons, List.flatten_nil, List.append_nil,
    List.cons_append, List.nil_append]
  after_results
  rfl

/-! ## The windows' blocks at a point -/

/-- The printed index maps, decided over the grid: the input block's row of blocks is the output's, the weight block's
    column of blocks is the output's, both run over the contraction with the point's position in its run of 8, and the
    bias block is in row 0 at the output's column of blocks. -/
theorem idx_facts : ∀ t : Fin cfg0.N,
    win0_0.index t (0 : Fin 2) = win0_3.index t (0 : Fin 2) ∧ win0_0.index t (1 : Fin 2) = t.val % 8
    ∧ win0_1.index t (0 : Fin 2) = t.val % 8 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- The first window's block at entry `(a, kk)` is the input at the entry's place in the whole array. -/
theorem iblk0_apply (c : Dev nD) (t : Fin cfg0.N) (a : Fin 1024) (kk : Fin 512) (P : Fin 8192) (K : Fin 4096)
    (hP : P.val = win0_0.index t (0 : Fin 2) * 1024 + a.val) (hK : K.val = win0_0.index t (1 : Fin 2) * 512 + kk.val) :
    iblk m c 0 t (ix2 a kk) = m ((c : Thread nD τ).loc main_arg0) (ix2 P K) := by
  show V m c main_arg0 (((cfg0.win 0).blk t).view.emb (ix2 a kk)) = _
  refine (congrFun (V_main_arg0 m c) _).trans (congrArg _ (funext fun d => Fin.ext ?_))
  match d with
  | ⟨0, _⟩ => show win0_0.index t (0 : Fin 2) * 1024 + 1 * a.val = P.val; omega
  | ⟨1, _⟩ => show win0_0.index t (1 : Fin 2) * 512 + 1 * kk.val = K.val; omega

/-- The second window's block at entry `(kk, b)` is the ternary value of the weight at the transposed place. -/
theorem iblk1_apply (c : Dev nD) (t : Fin cfg0.N) (kk : Fin 512) (b : Fin 2048) (K : Fin 4096) (Q : Fin 4096)
    (hK : K.val = win0_1.index t (0 : Fin 2) * 512 + kk.val) (hQ : Q.val = win0_1.index t (1 : Fin 2) * 2048 + b.val) :
    iblk m c 1 t (ix2 kk b) = tern (m ((c : Thread nD τ).loc main_arg1) (ix2 Q K)) := by
  show (V m c main_v3 : S4096x4096.Idx → EReal) (((cfg0.win 1).blk t).view.emb (ix2 kk b)) = _
  refine (congrFun (V_main_v3 m c) _).trans ?_
  refine (congrArg (ternT (m ((c : Thread nD τ).loc main_arg1))) (funext fun d => Fin.ext ?_ : _ = ix2 K Q)).trans (ternT_apply _ K Q)
  match d with
  | ⟨0, _⟩ => show win0_1.index t (0 : Fin 2) * 512 + 1 * kk.val = K.val; omega
  | ⟨1, _⟩ => show win0_1.index t (1 : Fin 2) * 2048 + 1 * b.val = Q.val; omega

/-- The third window's block at entry `(0, b)` is the bias at the entry's column in the whole result. -/
theorem iblk2_apply (c : Dev nD) (t : Fin cfg0.N) (b : Fin 2048) (Q : Fin 4096)
    (h0 : win0_2.index t (0 : Fin 2) = 0) (hQ : Q.val = win0_2.index t (1 : Fin 2) * 2048 + b.val) :
    iblk m c 2 t (ix2 (0 : Fin 1) b) = m ((c : Thread nD τ).loc main_arg2) (ix1 Q) := by
  show (V m c main_v4 : S1x4096.Idx → EReal) (((cfg0.win 2).blk t).view.emb (ix2 (0 : Fin 1) b)) = _
  refine (congrFun (V_main_v4 m c) _).trans ?_
  refine (congrArg (shapeCast S1x4096 (m ((c : Thread nD τ).loc main_arg2)) shapeCasts_S4096_S1x4096)
    (funext fun d => Fin.ext ?_ : _ = ix2 (0 : Fin 1) Q)).trans (biasRow_apply _ Q)
  match d with
  | ⟨0, _⟩ => show win0_2.index t (0 : Fin 2) * 1 + 1 * 0 = 0; omega
  | ⟨1, _⟩ => show win0_2.index t (1 : Fin 2) * 2048 + 1 * b.val = Q.val; omega

/-- THE POINT'S PRODUCTS. At point `t`, the `s`-th of its run of 8, the block product's entry `(a, b)` — which sits at
    `(P, Q)` in the whole result — is tile `s` of the row-by-row product of the input's row `P` with the ternary weight's
    row `Q`. -/
theorem tile_eq (c : Dev nD) (t : Fin cfg0.N) (a : Fin 1024) (b : Fin 2048) (P : Fin 8192) (Q : Fin 4096) (s : Fin 8)
    (hP : P.val = win0_3.index t (0 : Fin 2) * 1024 + a.val) (hQ : Q.val = win0_3.index t (1 : Fin 2) * 2048 + b.val)
    (hs : s.val = t.val % 8) :
    tileDot (iblk m c 0 t) (iblk m c 1 t) a b
      = ∑ j : Fin 512, rowTerm (m ((c : Thread nD τ).loc main_arg0)) (m ((c : Thread nD τ).loc main_arg1)) P Q (tilePos s j) := by
  obtain ⟨f0, f1, f2, f3, -, -⟩ := idx_facts t
  unfold tileDot
  refine Finset.sum_congr rfl fun j _ => ?_
  have hj : (tilePos s j).val = 512 * s.val + j.val := rfl
  rw [iblk0_apply m c t a j P (tilePos s j) (by omega) (by omega),
    iblk1_apply m c t j b (tilePos s j) Q (by omega) (by omega)]
  rfl

/-- The bias block's entry of column `b` at point `t`. -/
def biasAt (c : Dev nD) (t : Fin cfg0.N) (b : Fin 2048) : EReal := iblk m c 2 t (ix2 (0 : Fin 1) b)

/-- THE POINT'S BIAS ENTRY: the bias at the entry's column in the whole result. -/
theorem bias_eq (c : Dev nD) (t : Fin cfg0.N) (b : Fin 2048) (Q : Fin 4096)
    (hQ : Q.val = win0_3.index t (1 : Fin 2) * 2048 + b.val) :
    biasAt m c t b = m ((c : Thread nD τ).loc main_arg2) (ix1 Q) := by
  obtain ⟨-, -, -, -, f4, f5⟩ := idx_facts t
  exact iblk2_apply m c t b Q f4 (by omega)

end Cert.KernelIdeal.TernValue

end
-- ==== Proof.KernelValue.lean ====
/-
  The kernel's result array is the specification.

  The output block `(i, j)` stays in its buffer over the 8 consecutive points `(i, j, 0) … (i, j, 7)` of its run: the
  first point stores zero plus its block product, each later point adds its own block product to what the point before
  left, and the last point then adds the bias row. So after the run the entry that sits at `(r, o)` in the whole result
  holds `(∑ s < 8, ∑ j' < 512, x[r, 512·s + j'] · tern(w[o, 512·s + j'])) + b[o]`, and the 8 tiles of 512 consecutive
  terms are the one sum over 4096 terms.
-/
import proofs.«121766_j87230785782560_2_alg».proof.Proof.KernelBlocks

noncomputable section

open scoped BigOperators

namespace Cert.KernelIdeal.TernValue

open Cert.KernelIdeal Cert.KernelIdeal.Gen Idealize.ShloMosaic Idealize.ShloMosaic.TcCoe Idealize.SL.Sem
open Idealize.ShloMosaic.ValueIdx Cert.TernaryLinear

variable (m : (ℓ : Loc nD τ sig) → Buf (Elt Ideal) ℓ)

/-- The addend of point `n` at entry `(a, b)` of the output block: the point's block product there (zero for a
    number past the grid, which no statement below uses). -/
def addend (c : Dev nD) (n : ℕ) (a : Fin 1024) (b : Fin 2048) : EReal :=
  if h : n < cfg0.N then tileDot (iblk m c 0 ⟨n, h⟩) (iblk m c 1 ⟨n, h⟩) a b else 0

/-- A run's first point leaves zero plus its addend. -/
theorem reset_apply (c : Dev nD) (n : ℕ) (h : n < cfg0.N) (y : S1024x2048.Idx) :
    Value.reset3 m c n h y = (0 : EReal) + addend m c n (y 0) (y 1) := by
  obtain ⟨a, b, rfl⟩ : ∃ (a : Fin 1024) (b : Fin 2048), y = ix2 a b := ⟨y 0, y 1, eq_ix2 y⟩
  unfold Value.reset3
  refine (pay2_apply (iblk m c 0 ⟨n, h⟩) (iblk m c 1 ⟨n, h⟩) (k0_pay1 (F := Ideal)) a b).trans ?_
  rw [pay1_apply]
  unfold addend
  rw [dif_pos h]

/-- A point strictly inside a run adds its addend to what the point before left. -/
theorem step_mid (c : Dev nD) (n : ℕ) (h : n < cfg0.N) (acc : Vec Ideal S1024x2048 .f32) (y : S1024x2048.Idx)
    (h0 : ¬n % 8 = 0) (h7 : ¬n % 8 = 7) :
    Value.step3 m c n h acc y = (acc y : EReal) + addend m c n (y 0) (y 1) := by
  obtain ⟨a, b, rfl⟩ : ∃ (a : Fin 1024) (b : Fin 2048), y = ix2 a b := ⟨y 0, y 1, eq_ix2 y⟩
  unfold Value.step3
  rw [if_pos ⟨h0, h7⟩]
  refine (pay2_apply (iblk m c 0 ⟨n, h⟩) (iblk m c 1 ⟨n, h⟩) acc a b).trans ?_
  unfold addend
  rw [dif_pos h]

/-- A run's last point adds its addend, then the bias block's entry of the same column. -/
theorem step_last (c : Dev nD) (n : ℕ) (h : n < cfg0.N) (acc : Vec Ideal S1024x2048 .f32) (a : Fin 1024) (b : Fin 2048)
    (h0 : ¬n % 8 = 0) (h7 : n % 8 = 7) :
    Value.step3 m c n h acc (ix2 a b)
      = ((acc (ix2 a b) : EReal) + addend m c n a b) + biasAt m c ⟨n, h⟩ b := by
  unfold Value.step3
  rw [if_neg (fun hh => hh.2 h7), if_pos ⟨h0, h7⟩]
  refine (pay3_apply (k0_pay2 (iblk m c 0 ⟨n, h⟩) (iblk m c 1 ⟨n, h⟩) acc) (iblk m c 2 ⟨n, h⟩) a b).trans ?_
  refine congrArg (· + biasAt m c ⟨n, h⟩ b) ?_
  refine (pay2_apply (iblk m c 0 ⟨n, h⟩) (iblk m c 1 ⟨n, h⟩) acc a b).trans ?_
  unfold addend
  rw [dif_pos h]

/-- THE RUN'S FOLD at an entry: the 8 addends of the run's points, plus the last point's bias entry. -/
theorem fold_apply (c : Dev nD) (r : ℕ) (h : 8 * r + 7 < cfg0.N) (a : Fin 1024) (b : Fin 2048) :
    Pipeline.accAt (Value.reset3 m c) (Value.step3 m c) (8 * r) 7 h (ix2 a b)
      = (∑ s ∈ Finset.range 8, addend m c (8 * r + s) a b) + biasAt m c ⟨8 * r + 7, h⟩ b := by
  have h6 : Pipeline.accAt (Value.reset3 m c) (Value.step3 m c) (8 * r) 6 (Nat.lt_of_succ_lt h) (ix2 a b)
      = (0 : EReal) + ∑ s ∈ Finset.range 7, addend m c (8 * r + s) a b :=
    Pipeline.accAt_add_apply (Value.reset3 m c) (Value.step3 m c) (fun _ => (0 : EReal))
      (fun n y => addend m c n (y 0) (y 1)) (8 * r) 6
      (fun hb y => reset_apply m c (8 * r) hb y)
      (fun n hn acc y h1 h2 => step_mid m c n hn acc y (by omega) (by omega))
      6 le_rfl (Nat.lt_of_succ_lt h) (ix2 a b)
  have hl : Pipeline.accAt (Value.reset3 m c) (Value.step3 m c) (8 * r) 7 h (ix2 a b)
      = ((Pipeline.accAt (Value.reset3 m c) (Value.step3 m c) (8 * r) 6 (Nat.lt_of_succ_lt h) (ix2 a b) : EReal)
          + addend m c (8 * r + 7) a b) + biasAt m c ⟨8 * r + 7, h⟩ b :=
    step_last m c (8 * r + 7) h _ a b (by omega) (by omega)
  rw [hl, h6, zero_add, Finset.sum_range_succ _ 7]

/-- THE ENTRY after the run: for an entry `(a, b)` of the block of run `r` that sits at `(P, Q)` in the whole result,
    the fold is the specification's entry. -/
theorem fold_eq_entry (c : Dev nD) (P : Fin 8192) (Q : Fin 4096) (a : Fin 1024) (b : Fin 2048)
    (ha : a.val = P.val % 1024) (hb : b.val = Q.val % 2048) (r : ℕ) (hr : r = 2 * (P.val / 1024) + Q.val / 2048)
    (h : 8 * r + 7 < cfg0.N) :
    Pipeline.accAt (Value.reset3 m c) (Value.step3 m c) (8 * r) 7 h (ix2 a b)
      = entry (m ((c : Thread nD τ).loc main_arg0)) (m ((c : Thread nD τ).loc main_arg1))
          (m ((c : Thread nD τ).loc main_arg2)) P Q := by
  have hP := P.isLt
  have hQ := Q.isLt
  -- where the run's points' output blocks sit: block row `P / 1024`, block column `Q / 2048`
  have hidx : ∀ (n : ℕ) (hn : n < cfg0.N), n / 8 = r →
      win0_3.index ⟨n, hn⟩ (0 : Fin 2) = P.val / 1024 ∧ win0_3.index ⟨n, hn⟩ (1 : Fin 2) = Q.val / 2048 := by
    intro n hn hnr
    obtain ⟨e0, e1, e2, e3, e4⟩ := Value.idx_facts3 ⟨n, hn⟩
    have e5 : 2 * (win0_3.index ⟨n, hn⟩ (0 : Fin 2) - 0) + 1 * (win0_3.index ⟨n, hn⟩ (1 : Fin 2) - 0) = n / 8 := e4
    omega
  rw [fold_apply]
  unfold entry
  have hb7 : biasAt m c ⟨8 * r + 7, h⟩ b = m ((c : Thread nD τ).loc main_arg2) (ix1 Q) := by
    obtain ⟨i0, i1⟩ := hidx (8 * r + 7) h (by omega)
    exact bias_eq m c ⟨8 * r + 7, h⟩ b Q (by omega)
  have hsum : (∑ k : Fin 4096, rowTerm (m ((c : Thread nD τ).loc main_arg0)) (m ((c : Thread nD τ).loc main_arg1)) P Q k)
      = ∑ s ∈ Finset.range 8, addend m c (8 * r + s) a b :=
    sum_tiles _ (fun s => addend m c (8 * r + s) a b) (fun s => by
      have hs := s.isLt
      have hn : 8 * r + s.val < cfg0.N := by omega
      obtain ⟨i0, i1⟩ := hidx (8 * r + s.val) hn (by omega)
      show addend m c (8 * r + s.val) a b = _
      unfold addend
      rw [dif_pos hn]
      exact tile_eq m c ⟨8 * r + s.val, hn⟩ a b P Q s (by omega) (by omega) (by show s.val = (8 * r + s.val) % 8; omega))
  rw [hb7, ← hsum]

/-- THE KERNEL'S RESULT ARRAY, as the generated value leg names it, is the specification of the three arguments. -/
theorem result_eq (c : Dev nD) :
    Value.G3 m c = out (m ((c : Thread nD τ).loc main_arg0)) (m ((c : Thread nD τ).loc main_arg1))
      (m ((c : Thread nD τ).loc main_arg2)) := by
  funext i
  obtain ⟨P, Q, rfl⟩ : ∃ (P : Fin 8192) (Q : Fin 4096), i = ix2 P Q := ⟨i 0, i 1, eq_ix2 i⟩
  have hP := P.isLt
  have hQ := Q.isLt
  have hN : cfg0.N = 128 := N_0
  have hrun : Value.run3Of (ix2 P Q) = 2 * (P.val / 1024) + Q.val / 2048 := by
    show 2 * (P.val / 1024 - 0) + 1 * (Q.val / 2048 - 0) = _
    omega
  have hlt : 8 * Value.run3Of (ix2 P Q) + 7 < cfg0.N := by rw [hrun, hN]; omega
  have hloc : Value.loc3Of (ix2 P Q)
      = ix2 (⟨P.val % 1024, Nat.mod_lt _ (by decide)⟩ : Fin 1024) (⟨Q.val % 2048, Nat.mod_lt _ (by decide)⟩ : Fin 2048) :=
    funext fun d => by
      match d with
      | ⟨0, _⟩ => rfl
      | ⟨1, _⟩ => rfl
  unfold Value.G3
  rw [dif_pos hlt, hloc]
  exact fold_eq_entry m c P Q _ _ rfl rfl _ hrun hlt

end Cert.KernelIdeal.TernValue

end
-- ==== Proof.lean ====
/-
  A linear layer with a ternary weight: `y = x · tern(w)ᵀ + b` for `x` of shape [8192, 4096], `w` of shape [4096, 4096] and
  `b` of length 4096, where `tern(v)` clamps `v` to [-1, 1] and rounds it to the nearest integer (ties to even).

  On the extended reals both programs compute, at row `r` and column `o`,

      (∑ k < 4096, x[r, k] · tern(w[o, k])) + b[o]          (Proof/TernarySpec.lean, `out`).

  * The kernel is handed the transposed ternary weight, splits the contraction into 8 tiles of 512 terms, and keeps an
    output block in place over the 8 grid points of a run: zero plus the first tile's products, then one more tile per
    point, then the bias row at the last point. The 8 tile sums are the one sum over 4096 terms by commutativity and
    associativity of the addition alone (Proof/KernelOps.lean: the three stored values at an index;
    Proof/KernelBlocks.lean: what the input windows hold at a point; Proof/KernelValue.lean: the fold of a run and the
    whole array).
  * The reference contracts `x` with `w + (tern(w) - w)` in one product and adds the bias; `v + (q - v) = q` holds for a
    REAL `v` and any extended real `q`, and fails at `v = ±∞` — so this side uses that the weight's entries are finite,
    which is the precondition (Proof/RefRead.lean, Proof/FiniteWeight.lean). Nothing is asked of `x` or `b`.

  The three frame claims are the programs' generated runs with the result forgotten; the idealization rewrote no
  operation of the kernel, so there is nothing to preserve.
-/
import proofs.«121766_j87230785782560_2_alg».proof.Defs
import proofs.«121766_j87230785782560_2_alg».proof.Proof.Gen.Kernel.Frame
import proofs.«121766_j87230785782560_2_alg».proof.Proof.Gen.KernelIdeal.Value
import proofs.«121766_j87230785782560_2_alg».proof.Proof.Gen.Pre_finite_inputs
import proofs.«121766_j87230785782560_2_alg».proof.Proof.Gen.ReferenceIdeal.Run
import proofs.«121766_j87230785782560_2_alg».proof.Proof.RefRead
import proofs.«121766_j87230785782560_2_alg».proof.Proof.FiniteWeight
import proofs.«121766_j87230785782560_2_alg».proof.Proof.KernelValue
import Idealize.ShloMosaic.Adequacy
import Idealize.ShloMosaic.Init

noncomputable section

namespace Cert.Proof

open Idealize.ShloMosaic Idealize.SL.Sem

/-- The idealized kernel terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments as they were. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments, with the weight's entries finite, both programs end with the
    result array `out x w b`. -/
theorem algebraic_KernelIdeal_ReferenceIdeal : algebraic_KernelIdeal_ReferenceIdeal := by
  intro m ρ m' ρ' hpre hagree
  refine ⟨fun c => Cert.TernaryLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.TernValue.result_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, (hagree c).1, (hagree c).2.1, (hagree c).2.2]
    exact Cert.ReferenceIdeal.RefValue.result_eq _ _ _
      (fun j => Cert.TernaryLinear.weight_real _ _ _ (hpre c) j)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
